-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S256x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x256 : Shape := ⟨2, ![512, 256]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S512x512 .f32) (main_arg1 : FVec F S512x512 .f32) (main_arg2 : FVec F S512x256 .f32) (main_arg3 : FVec F S512x256 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S512x512 : Shape := ⟨2, ![512, 512]⟩
abbrev S512x256 : Shape := ⟨2, ![512, 256]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S512x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x512_S256x512_0_0 : ∀ a, (![0, 0] : Fin 2 → Nat) a + S256x512.size a ≤ S256x512.size a
  h_S256x512 : 0 < S256x512.numel
  inb_S512x256_S512x256_0_0 : ∀ a, (![0, 0] : Fin 2 → Nat) a + S512x256.size a ≤ S512x256.size a
  h_S512x256 : 0 < S512x256.numel
  reduces_S256x512_S256 : S256x512.Reduces [1] S256
  shapeCasts_S256_S256x1 : S256.ShapeCasts S256x1
  reduces_S512x256_S256 : S512x256.Reduces [0] S256
  shapeCasts_S256_S1x256 : S256.ShapeCasts S1x256
  broadcasts_S256x1_S256x512 : S256x1.Broadcasts S256x512
  broadcasts_S1x256_S512x256 : S1x256.Broadcasts S512x256
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S512x512.size a
  hwx0_0 : ∀ i : grid0.Coords, EltTy.bits .f32 = 32 ∨ (Rect.block (s := S512x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S512x512.size a
  hwx0_1 : ∀ i : grid0.Coords, EltTy.bits .f32 = 32 ∨ (Rect.block (s := S512x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S512x256.size a
  hwx0_4 : ∀ i : grid0.Coords, EltTy.bits .f32 = 32 ∨ (Rect.block (s := S512x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S512x256.size a
  hwx0_5 : ∀ i : grid0.Coords, EltTy.bits .f32 = 32 ∨ (Rect.block (s := S512x256) S256x256.size (cc0_transform_5 i) (hinb0_5 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x512 : Shape := ⟨2, ![512, 512]⟩
abbrev S512x256 : Shape := ⟨2, ![512, 256]⟩
abbrev S512x512x1 : Shape := ⟨3, ![512, 512, 1]⟩
abbrev S1x512x256 : Shape := ⟨3, ![1, 512, 256]⟩
abbrev S512x512x256 : Shape := ⟨3, ![512, 512, 256]⟩
abbrev S_ : Shape := ⟨0, ![]⟩
abbrev S512x1x256 : Shape := ⟨3, ![512, 1, 256]⟩

abbrev nBuf : Space → Nat
  | .hbm => 28
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x256, .f32⟩
  | .hbm, ⟨3, _⟩ => ⟨S512x256, .f32⟩
  | .hbm, ⟨4, _⟩ => ⟨S512x512x1, .f32⟩
  | .hbm, ⟨5, _⟩ => ⟨S1x512x256, .f32⟩
  | .hbm, ⟨6, _⟩ => ⟨S512x512x256, .f32⟩
  | .hbm, ⟨7, _⟩ => ⟨S512x512x256, .f32⟩
  | .hbm, ⟨8, _⟩ => ⟨S512x512x256, .f32⟩
  | .hbm, ⟨9, _⟩ => ⟨S512x512x1, .f32⟩
  | .hbm, ⟨10, _⟩ => ⟨S1x512x256, .f32⟩
  | .hbm, ⟨11, _⟩ => ⟨S512x512x256, .f32⟩
  | .hbm, ⟨12, _⟩ => ⟨S512x512x256, .f32⟩
  | .hbm, ⟨13, _⟩ => ⟨S512x512x256, .f32⟩
  | .hbm, ⟨14, _⟩ => ⟨S_, .f32⟩
  | .hbm, ⟨15, _⟩ => ⟨S512x256, .f32⟩
  | .hbm, ⟨16, _⟩ => ⟨S512x1x256, .f32⟩
  | .hbm, ⟨17, _⟩ => ⟨S512x512x256, .f32⟩
  | .hbm, ⟨18, _⟩ => ⟨S512x512x256, .f32⟩
  | .hbm, ⟨19, _⟩ => ⟨S512x512x256, .f32⟩
  | .hbm, ⟨20, _⟩ => ⟨S512x512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S512x512_S512x512x1_0_1 : S512x512.BroadcastsInDim S512x512x1 (![0, 1] : Fin 2 → Fin S512x512x1.rank)
  bcast_S512x256_S1x512x256_1_2 : S512x256.BroadcastsInDim S1x512x256 (![1, 2] : Fin 2 → Fin S1x512x256.rank)
  bcast_S512x512x1_S512x512x256_0_1_2 : S512x512x1.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  reducesTo_S512x512x256_S512x256_d1 : S512x512x256.ReducesTo [1] S512x256
  h_S_ : 0 < S_.numel
  bcast_S512x256_S512x1x256_0_2 : S512x256.BroadcastsInDim S512x1x256 (![0, 2] : Fin 2 → Fin S512x1x256.rank)
  bcast_S512x1x256_S512x512x256_0_1_2 : S512x1x256.BroadcastsInDim S512x512x256 (![0, 1, 2] : Fin 3 → Fin S512x512x256.rank)
  shapeCasts_S512x1x256_S512x256 : S512x1x256.ShapeCasts S512x256

variable [Facts₀]

class Facts : Prop extends Facts₀ where

variable [Facts]
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.LibSignedLogSum.lean ====
/-
  A signed sum of exponentials, its logarithm and its sign, taken with any finite stabiliser.

  For a row (a k, s k) and a column (b k, z k) of real numbers — logarithms a, b and signed weights s, z — the signed
  sum  T = ∑ k, (s k · z k) · exp ((a k + b k) − μ)  stabilised by a real μ, and the factorised sum
  S = ∑ k, (s k · exp (a k − α)) · (z k · exp (b k − β))  stabilised separately by reals α and β, differ by the
  positive factor  exp (μ − α − β):  S = exp (μ − α − β) · T,  whatever the three stabilisers are, because
  exp (a − α) · exp (b − β) = exp (μ − α − β) · exp (a + b − μ).  Hence  sign S = sign T,  and
  (α + β) + log |S| = μ + log |T|:  for T ≠ 0 the logarithm of the factor is μ − α − β, and for T = 0 both sides are
  −∞ (log 0 = −∞ on the extended reals, and a real plus −∞ is −∞).

  On the extended reals the identity needs every entry and every stabiliser to be a real number (exp, the products and
  the differences misbehave at the infinities); the stabilisers used in practice are maxima of finitely many real
  entries taken from a starting value below +∞, which are real numbers (`isFin_foldMax`).
-/
import proofs.«143088_j9199819948570_2_alg».proof.Proof.LibERealSums
import Idealize.ShloMosaic.PureOps.Ideal
import Mathlib.Data.Finset.Fold
import Mathlib.Analysis.SpecialFunctions.Log.Basic

noncomputable section

open scoped BigOperators

namespace Cert.SignedLogSum

open Idealize.ShloMosaic Cert.LibERealSums

variable {n : ℕ}

/-! ## The two sums, on the extended reals -/

/-- The factorised sum: row entries stabilised by `α`, column entries by `β`. -/
def splitSum (α β : EReal) (a s b z : Fin n → EReal) : EReal :=
  ∑ k, (s k * Ideal.exp (a k - α)) * (z k * Ideal.exp (b k - β))

/-- The joint sum: the products of the weights against the exponential of the summed logarithms, stabilised by `μ`. -/
def jointSum (μ : EReal) (a s b z : Fin n → EReal) : EReal :=
  ∑ k, (s k * z k) * Ideal.exp ((a k + b k) - μ)

/-- The maximum of a finite family folded from a starting value. -/
def foldMax (w : EReal) (f : Fin n → EReal) : EReal := (Finset.univ : Finset (Fin n)).fold max w f

/-! ## Over the reals -/

/-- The factorised sum is the joint sum times `exp (μ − α − β)`. -/
theorem real_split (α β μ : ℝ) (a s b z : Fin n → ℝ) :
    ∑ k, (s k * Real.exp (a k - α)) * (z k * Real.exp (b k - β))
      = Real.exp (μ - α - β) * ∑ k, (s k * z k) * Real.exp ((a k + b k) - μ) := by
  rw [Finset.mul_sum]
  refine Finset.sum_congr rfl fun k _ => ?_
  have h : Real.exp (a k - α) * Real.exp (b k - β) = Real.exp (μ - α - β) * Real.exp ((a k + b k) - μ) := by
    rw [← Real.exp_add, ← Real.exp_add]
    congr 1
    ring
  calc (s k * Real.exp (a k - α)) * (z k * Real.exp (b k - β))
      = (s k * z k) * (Real.exp (a k - α) * Real.exp (b k - β)) := by ring
    _ = Real.exp (μ - α - β) * ((s k * z k) * Real.exp ((a k + b k) - μ)) := by rw [h]; ring

/-! ## From the extended reals to the reals -/

/-- A finite sum of real numbers, seen in the extended reals. -/
theorem coe_sum {ι : Type*} (t : Finset ι) (g : ι → ℝ) : (∑ k ∈ t, ((g k : ℝ) : EReal)) = ((∑ k ∈ t, g k : ℝ) : EReal) := by
  classical
  induction t using Finset.induction_on with
  | empty => simp
  | insert i t hi ih => rw [Finset.sum_insert hi, Finset.sum_insert hi, EReal.coe_add, ih]

/-- The absolute value `max x (−x)` of a real number, seen in the extended reals. -/
theorem max_neg_coe (r : ℝ) : max (r : EReal) (-(r : EReal)) = ((|r| : ℝ) : EReal) := by
  rw [← EReal.coe_neg, ← EReal.coe_strictMono.monotone.map_max, abs_eq_max_neg]

/-- The factorised sum of real data is a real number. -/
theorem splitSum_coe (α β : ℝ) (a s b z : Fin n → ℝ) :
    splitSum (α : EReal) (β : EReal) (fun k => (a k : EReal)) (fun k => (s k : EReal)) (fun k => (b k : EReal)) (fun k => (z k : EReal))
      = ((∑ k, (s k * Real.exp (a k - α)) * (z k * Real.exp (b k - β)) : ℝ) : EReal) := by
  unfold splitSum
  rw [← coe_sum]
  refine Finset.sum_congr rfl fun k _ => ?_
  rw [← EReal.coe_sub, ← EReal.coe_sub, Ideal.exp_coe, Ideal.exp_coe, ← EReal.coe_mul, ← EReal.coe_mul, ← EReal.coe_mul]

/-- The joint sum of real data is a real number. -/
theorem jointSum_coe (μ : ℝ) (a s b z : Fin n → ℝ) :
    jointSum (μ : EReal) (fun k => (a k : EReal)) (fun k => (s k : EReal)) (fun k => (b k : EReal)) (fun k => (z k : EReal))
      = ((∑ k, (s k * z k) * Real.exp ((a k + b k) - μ) : ℝ) : EReal) := by
  unfold jointSum
  rw [← coe_sum]
  refine Finset.sum_congr rfl fun k _ => ?_
  rw [← EReal.coe_add, ← EReal.coe_sub, Ideal.exp_coe, ← EReal.coe_mul, ← EReal.coe_mul]

/-- A family of finite extended reals is a family of real numbers. -/
theorem exists_coe_fun {f : Fin n → EReal} (hf : ∀ k, IsFin (f k)) : ∃ g : Fin n → ℝ, f = fun k => (g k : EReal) := by
  choose g hg using fun k => (hf k).exists_coe
  exact ⟨g, funext hg⟩

/-! ## The two outputs agree on finite data -/

/-- The logarithm output: `(α + β) + log |S| = μ + log |T|` for finite entries and finite stabilisers. -/
theorem log_abs_split {α β μ : EReal} {a s b z : Fin n → EReal} (hα : IsFin α) (hβ : IsFin β) (hμ : IsFin μ)
    (ha : ∀ k, IsFin (a k)) (hs : ∀ k, IsFin (s k)) (hb : ∀ k, IsFin (b k)) (hz : ∀ k, IsFin (z k)) :
    (α + β) + Ideal.log (max (splitSum α β a s b z) (-(splitSum α β a s b z)))
      = μ + Ideal.log (max (jointSum μ a s b z) (-(jointSum μ a s b z))) := by
  obtain ⟨α, rfl⟩ := hα.exists_coe
  obtain ⟨β, rfl⟩ := hβ.exists_coe
  obtain ⟨μ, rfl⟩ := hμ.exists_coe
  obtain ⟨a, rfl⟩ := exists_coe_fun ha
  obtain ⟨s, rfl⟩ := exists_coe_fun hs
  obtain ⟨b, rfl⟩ := exists_coe_fun hb
  obtain ⟨z, rfl⟩ := exists_coe_fun hz
  rw [splitSum_coe, jointSum_coe, real_split α β μ, max_neg_coe, max_neg_coe, Ideal.log_coe, Ideal.log_coe]
  generalize (∑ k, (s k * z k) * Real.exp ((a k + b k) - μ)) = T
  have hc : 0 < Real.exp (μ - α - β) := Real.exp_pos _
  rw [abs_mul, abs_of_pos hc]
  by_cases hT : T = 0
  · subst hT
    rw [abs_zero, mul_zero, if_pos le_rfl, EReal.add_bot, EReal.add_bot]
  · have hT' : 0 < |T| := abs_pos.mpr hT
    rw [if_neg (not_le.mpr (mul_pos hc hT')), if_neg (not_le.mpr hT'), Real.log_mul hc.ne' hT'.ne', Real.log_exp,
      ← EReal.coe_add, ← EReal.coe_add, ← EReal.coe_add]
    congr 1
    ring

/-- The sign output: `sign S = sign T` for finite entries and finite stabilisers. -/
theorem sign_split {α β μ : EReal} {a s b z : Fin n → EReal} (hα : IsFin α) (hβ : IsFin β) (hμ : IsFin μ)
    (ha : ∀ k, IsFin (a k)) (hs : ∀ k, IsFin (s k)) (hb : ∀ k, IsFin (b k)) (hz : ∀ k, IsFin (z k)) :
    Ideal.sign (splitSum α β a s b z) = Ideal.sign (jointSum μ a s b z) := by
  obtain ⟨α, rfl⟩ := hα.exists_coe
  obtain ⟨β, rfl⟩ := hβ.exists_coe
  obtain ⟨μ, rfl⟩ := hμ.exists_coe
  obtain ⟨a, rfl⟩ := exists_coe_fun ha
  obtain ⟨s, rfl⟩ := exists_coe_fun hs
  obtain ⟨b, rfl⟩ := exists_coe_fun hb
  obtain ⟨z, rfl⟩ := exists_coe_fun hz
  rw [splitSum_coe, jointSum_coe, real_split α β μ, Ideal.sign_coe, Ideal.sign_coe, sign_mul,
    sign_pos (Real.exp_pos _), one_mul]

/-! ## A maximum of finitely many real numbers is a real number -/

/-- The maximum of a non-empty finite family of finite extended reals, folded from a starting value below `+∞`,
    is finite: it is at least one entry, and below `+∞` because the start and every entry are. -/
theorem isFin_foldMax (hn : 0 < n) {w : EReal} (hw : w ≠ ⊤) {f : Fin n → EReal} (hf : ∀ k, IsFin (f k)) :
    IsFin (foldMax w f) := by
  unfold foldMax
  constructor
  · refine ne_of_gt ?_
    rw [Finset.lt_fold_max]
    exact Or.inr ⟨⟨0, hn⟩, Finset.mem_univ _, bot_lt_iff_ne_bot.mpr (hf _).1⟩
  · refine ne_of_lt ?_
    rw [Finset.fold_max_lt]
    exact ⟨lt_top_iff_ne_top.mpr hw, fun k _ => lt_top_iff_ne_top.mpr (hf k).2⟩

/-! ## The four outputs, each stabilised by the maxima of its own entries -/

/-- The logarithm output of the factorised form: stabilisers the maximum of the row's and of the column's logarithms. -/
def splitLog (w : EReal) (a s b z : Fin n → EReal) : EReal :=
  (foldMax w a + foldMax w b)
    + Ideal.log (max (splitSum (foldMax w a) (foldMax w b) a s b z) (-(splitSum (foldMax w a) (foldMax w b) a s b z)))

/-- The sign output of the factorised form. -/
def splitSign (w : EReal) (a s b z : Fin n → EReal) : EReal :=
  Ideal.sign (splitSum (foldMax w a) (foldMax w b) a s b z)

/-- The logarithm output of the joint form: the one stabiliser is the maximum of the summed logarithms. -/
def jointLog (w : EReal) (a s b z : Fin n → EReal) : EReal :=
  (foldMax w fun k => a k + b k)
    + Ideal.log (max (jointSum (foldMax w fun k => a k + b k) a s b z) (-(jointSum (foldMax w fun k => a k + b k) a s b z)))

/-- The sign output of the joint form. -/
def jointSign (w : EReal) (a s b z : Fin n → EReal) : EReal :=
  Ideal.sign (jointSum (foldMax w fun k => a k + b k) a s b z)

/-- On finite entries (at least one) the two logarithm outputs agree. -/
theorem splitLog_eq_jointLog (hn : 0 < n) {w : EReal} (hw : w ≠ ⊤) {a s b z : Fin n → EReal}
    (ha : ∀ k, IsFin (a k)) (hs : ∀ k, IsFin (s k)) (hb : ∀ k, IsFin (b k)) (hz : ∀ k, IsFin (z k)) :
    splitLog w a s b z = jointLog w a s b z :=
  log_abs_split (isFin_foldMax hn hw ha) (isFin_foldMax hn hw hb) (isFin_foldMax hn hw fun k => (ha k).add (hb k)) ha hs hb hz

/-- On finite entries (at least one) the two sign outputs agree. -/
theorem splitSign_eq_jointSign (hn : 0 < n) {w : EReal} (hw : w ≠ ⊤) {a s b z : Fin n → EReal}
    (ha : ∀ k, IsFin (a k)) (hs : ∀ k, IsFin (s k)) (hb : ∀ k, IsFin (b k)) (hz : ∀ k, IsFin (z k)) :
    splitSign w a s b z = jointSign w a s b z :=
  sign_split (isFin_foldMax hn hw ha) (isFin_foldMax hn hw hb) (isFin_foldMax hn hw fun k => (ha k).add (hb k)) ha hs hb hz

/-- The f32 word 0xFF800000 is −∞, in particular not +∞. -/
theorem negInf_word : Ideal.ofBits .f32 0xFF800000#32 = ⊥ := by
  simp [Ideal.ofBits, Ideal.ieee]

theorem negInf_word_ne_top : Ideal.ofBits .f32 0xFF800000#32 ≠ ⊤ := by
  rw [negInf_word]; exact bot_ne_top

end Cert.SignedLogSum

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.LibRowLayout.lean ====
/-
  A vector laid along the rows of a matrix, a scalar spread over a matrix, and a flat array read as rows — each
  read at an index.

  A length-b vector v becomes an [a, b] matrix whose every row is v: the kernel does it by a cast to [1, b] and a
  broadcast, the host by two broadcasts along named axes; either way entry (p, c) is v(c). A scalar spread over any
  shape reads the scalar everywhere. A flat array of a*b entries read as a rows of b (or the other way round) keeps
  the row-major position: entry (r, l) of the matrix is entry r*b + l of the flat array.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx

variable {α : Type} {a b : ℕ}

/-- The kernel's form: v cast to one row and that row broadcast over a rows reads v(c) at (p, c). -/
theorem rowVector_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The host's form: v broadcast along axis 1 into one row, the row broadcast along both axes over a rows, reads
    v(c) at (p, c). -/
theorem hostRowVector_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- A scalar broadcast over a matrix reads the scalar at every index. -/
theorem hostScalar_apply (v : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ ![] h v j = v ix0 :=
  broadcastInDim_apply ![] h v j ix0 fun ax => ax.elim0

variable {N : ℕ}

/-- A flat array cast to a rows of b reads, at (r, l), the flat entry at position r*b + l. -/
theorem rows_of_flat_apply (v : (⟨1, ![N]⟩ : Shape).Idx → α) (h : (⟨1, ![N]⟩ : Shape).ShapeCasts ⟨2, ![a, b]⟩)
    (r : Fin a) (l : Fin b) (q : Fin N) (hq : q.val = r.val * b + l.val) :
    shapeCast ⟨2, ![a, b]⟩ v h (ix2 r l) = v (ix1 q) :=
  shapeCast_apply v h _ _ (by
    rw [Shape.rowMajor_val_two, Shape.rowMajor_val_one]
    exact hq)

/-- A matrix of a rows of b cast to a flat array reads, at position r*b + l, the entry (r, l). -/
theorem flat_of_rows_apply (v : (⟨2, ![a, b]⟩ : Shape).Idx → α) (h : (⟨2, ![a, b]⟩ : Shape).ShapeCasts ⟨1, ![N]⟩)
    (r : Fin a) (l : Fin b) (q : Fin N) (hq : q.val = r.val * b + l.val) :
    shapeCast ⟨1, ![N]⟩ v h (ix1 q) = v (ix2 r l) :=
  shapeCast_apply v h _ _ (by
    rw [Shape.rowMajor_val_two, Shape.rowMajor_val_one]
    exact hq.symm)

end Cert.RowLayout

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibFirstAxis.lean ====
/-
  Reading a two-dimensional value column by column on the extended reals, and a matrix product of any precision.

  The maximum of an [a, b] value over its FIRST axis, at column q, is the fold of `max` over the column's entries
  (k, q) from the starting value — the companion of the row maximum over the last axis.  And a matrix product of an
  [a, n] with an [n, b] operand into a zero accumulator reads, at (p, e), the sum over k of x(p,k) · w(k,e) whatever
  precision the product asks for: on the extended reals the precision only names roundings that are not there.
-/
import proofs.«143088_j9199819948570_2_alg».proof.Proof.LibRowReduce
import proofs.«143088_j9199819948570_2_alg».proof.Proof.LibColsMatmul
import Idealize.ShloMosaic.PureOps.Ideal.Laws
import Idealize.ShloMosaic.Lib.ValueIdx

noncomputable section

namespace Cert.FirstAxis

open Idealize.ShloMosaic Idealize.ShloMosaic.ValueIdx

/-- Column index `q` with coordinate `k` put back on the first axis is (k, q). -/
theorem lift_first2 {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- The maximum over the first axis, at column `q`: the fold of `max` over the column's entries. -/
theorem multiReduction_max_col {a b : Nat} {φ : FTy} (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction (F := Ideal) .maximumf [0] ⟨1, ![b]⟩ x acc h hφ hacc (ix1 q)
      = RowReduce.foldMax (Ideal.ofBits φ acc) fun k : Fin a => x (ix2 k q) := by
  refine (Ideal.multiReduction_maximumf_single x acc h hφ hacc (ix1 q)).trans ?_
  have hf : (x ∘ h.lift (ix1 q)) = fun k : Fin a => x (ix2 k q) := funext fun k => congrArg x (lift_first2 h q k)
  unfold RowReduce.foldMax
  exact congrArg (fun f => Finset.fold max (Ideal.ofBits φ acc) f (Finset.univ : Finset (Fin a))) hf

/-- A matrix product of an [a, n] with an [n, b] operand of any float formats into the zero accumulator, at (p, e),
    is the sum over k of x(p,k) · w(k,e), whatever precision the product asks for; the dimension record may be any
    record equal to "contract axis 1 of the left operand with axis 0 of the right". -/
theorem cols_matmul_prec {a b n : ℕ} {φ₁ φ₂ : FTy}
    (wf : DotDims.WF ⟨2, ![a, n]⟩ ⟨2, ![n, b]⟩ ⟨2, ![a, b]⟩ [1] [0] [0] [1] [] [])
    (d : DotDims ⟨2, ![a, n]⟩ ⟨2, ![n, b]⟩ ⟨2, ![a, b]⟩) (hd : d = Cert.ColsMatmul.colsDims wf)
    (prec : Option ContractPrecision) (x : FVec Ideal ⟨2, ![a, n]⟩ φ₁) (w : FVec Ideal ⟨2, ![n, b]⟩ φ₂) (p : Fin a) (e : Fin b) :
    FloatOps.matmul d prec x w (constant ⟨2, ![a, b]⟩ .f32 0x00000000#32) (ix2 p e)
      = ∑ k : Fin n, x (ix2 p k) * w (ix2 k e) := by
  subst hd
  exact (Ideal.matmul_constant_zero_apply _ prec x w (ix2 p e)).trans (Cert.ColsMatmul.contraction_cols wf x w p e)

end Cert.FirstAxis

end
-- ==== Proof.KernelBlock.lean ====
/-
  What one grid point computes, read entry by entry.

  A grid point holds a block of 256 rows of the two left arrays (logarithms x0 and signed weights x1, each 256 × 512)
  and the whole of the two right arrays (logarithms x2 and signed weights x3, each 512 × 256).  It takes the maximum
  of each row of x0 and of each column of x2 (both folded from −∞), forms the 256 × 256 matrix product of
  x1 · exp (x0 − row maximum) with x3 · exp (x2 − column maximum), and stores
    * (row maximum + column maximum) + log |product|, and
    * the sign of the product (written as "1 with the product's sign where |product| > 0, else the product").
  Entry (r, q) of the product is the factorised signed sum of row r against column q, stabilised by the row's and the
  column's maxima; so the two stored entries are the logarithm output and the sign output of that sum.
-/
import proofs.«143088_j9199819948570_2_alg».proof.Proof.Gen.KernelIdeal.Skeleton
import proofs.«143088_j9199819948570_2_alg».proof.Proof.LibSignedLogSum
import proofs.«143088_j9199819948570_2_alg».proof.Proof.LibRowReduce
import proofs.«143088_j9199819948570_2_alg».proof.Proof.LibRowLayout
import proofs.«143088_j9199819948570_2_alg».proof.Proof.LibFirstAxis
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx Cert.SignedLogSum

/-- The starting value of every maximum: the f32 word of −∞. -/
abbrev negInf : EReal := Ideal.ofBits .f32 0xFF800000#32

/-! ## The maxima the body takes -/

/-- The row maxima of a block of logarithms, as the body takes them. -/
abbrev rowMaxV (x0 : Vec Ideal S256x512 .f32) : FVec Ideal S256 .f32 :=
  multiReduction .maximumf [1] S256 x0 0xFF800000#32 reduces_S256x512_S256 (.inl rfl) rfl

/-- The column maxima of the right logarithms, as the body takes them. -/
abbrev colMaxV (x2 : Vec Ideal S512x256 .f32) : FVec Ideal S256 .f32 :=
  multiReduction .maximumf [0] S256 x2 0xFF800000#32 reduces_S512x256_S256 (.inl rfl) rfl

theorem rowMaxV_apply (x0 : Vec Ideal S256x512 .f32) (r : Fin 256) :
    rowMaxV x0 (ix1 r) = foldMax negInf fun k : Fin 512 => x0 (ix2 r k) :=
  (RowReduce.multiReduction_max_row (φ := .f32) x0 0xFF800000#32 reduces_S256x512_S256 (.inl rfl) rfl r).trans rfl

theorem colMaxV_apply (x2 : Vec Ideal S512x256 .f32) (q : Fin 256) :
    colMaxV x2 (ix1 q) = foldMax negInf fun k : Fin 512 => x2 (ix2 k q) :=
  (Cert.FirstAxis.multiReduction_max_col (φ := .f32) x2 0xFF800000#32 reduces_S512x256_S256 (.inl rfl) rfl q).trans rfl

/-! ## The matrix product at an entry -/

/-- Entry (r, q) of the product the body forms: the factorised signed sum of row r against column q, each
    stabilised by its own maximum. -/
theorem pay3_apply (x0 x1 : Vec Ideal S256x512 .f32) (x2 x3 : Vec Ideal S512x256 .f32) (r q : Fin 256) :
    k0_pay3 x0 x1 x2 x3 (ix2 r q)
      = splitSum (foldMax negInf fun k : Fin 512 => x0 (ix2 r k)) (foldMax negInf fun k : Fin 512 => x2 (ix2 k q))
          (fun k : Fin 512 => x0 (ix2 r k)) (fun k : Fin 512 => x1 (ix2 r k))
          (fun k : Fin 512 => x2 (ix2 k q)) (fun k : Fin 512 => x3 (ix2 k q)) := by
  unfold k0_pay3 k0_pay1 k0_pay2
  refine (Cert.FirstAxis.cols_matmul_prec dot_S256x512_S512x256_S256x256_1_0_0_1_n_n_wf _ rfl (some .fp32) _ _ r q).trans ?_
  unfold splitSum
  refine Finset.sum_congr rfl fun k _ => ?_
  show (x1 (ix2 r k) * Ideal.exp (x0 (ix2 r k)
        - broadcastTo S256x512 (shapeCast S256x1 (rowMaxV x0) shapeCasts_S256_S256x1) broadcasts_S256x1_S256x512 (ix2 r k)))
      * (x3 (ix2 k q) * Ideal.exp (x2 (ix2 k q)
        - broadcastTo S512x256 (shapeCast S1x256 (colMaxV x2) shapeCasts_S256_S1x256) broadcasts_S1x256_S512x256 (ix2 k q))) = _
  rw [RowReduce.column_broadcast_apply, Cert.RowLayout.rowVector_apply, rowMaxV_apply, colMaxV_apply]

/-! ## The two stored values at an entry -/

/-- The first stored value at (r, q): (row maximum + column maximum) + log |product entry|. -/
theorem pay4_apply (x0 x1 : Vec Ideal S256x512 .f32) (x2 x3 : Vec Ideal S512x256 .f32) (r q : Fin 256) :
    k0_pay4 x0 x1 x2 x3 (ix2 r q)
      = ((foldMax negInf fun k : Fin 512 => x0 (ix2 r k)) + (foldMax negInf fun k : Fin 512 => x2 (ix2 k q)))
        + Ideal.log (max (k0_pay3 x0 x1 x2 x3 (ix2 r q)) (-(k0_pay3 x0 x1 x2 x3 (ix2 r q)))) := by
  unfold k0_pay4 k0_pay1 k0_pay2
  show (broadcastTo S256x256 (shapeCast S256x1 (rowMaxV x0) shapeCasts_S256_S256x1) broadcasts_S256x1_S256x256 (ix2 r q)
        + broadcastTo S256x256 (shapeCast S1x256 (colMaxV x2) shapeCasts_S256_S1x256) broadcasts_S1x256_S256x256 (ix2 r q))
      + Ideal.log (max (k0_pay3 x0 x1 x2 x3 (ix2 r q)) (-(k0_pay3 x0 x1 x2 x3 (ix2 r q)))) = _
  rw [RowReduce.column_broadcast_apply, Cert.RowLayout.rowVector_apply, rowMaxV_apply, colMaxV_apply]

/-- The second stored value: "1 with the product's sign where |product| > 0, else the product" is the sign of the
    product entry, at every extended real. -/
theorem pay5_apply (x0 x1 : Vec Ideal S256x512 .f32) (x2 x3 : Vec Ideal S512x256 .f32) (j : S256x256.Idx) :
    k0_pay5 x0 x1 x2 x3 j = Ideal.sign (k0_pay3 x0 x1 x2 x3 j) := by
  unfold k0_pay5
  exact Ideal.jnp_sign_eq_sign_f32 (k0_pay3 x0 x1 x2 x3 j)

/-! ## The same with the row and the column named -/

/-- The first stored value at (r, q) is the logarithm output of the factorised form of row r against column q,
    whatever names the row's and the column's entries go by. -/
theorem pay4_rows (x0 x1 : Vec Ideal S256x512 .f32) (x2 x3 : Vec Ideal S512x256 .f32) (r q : Fin 256)
    (a s b z : Fin 512 → EReal) (ha : ∀ k, x0 (ix2 r k) = a k) (hs : ∀ k, x1 (ix2 r k) = s k)
    (hb : ∀ k, x2 (ix2 k q) = b k) (hz : ∀ k, x3 (ix2 k q) = z k) :
    k0_pay4 x0 x1 x2 x3 (ix2 r q) = splitLog negInf a s b z := by
  obtain rfl : (fun k : Fin 512 => x0 (ix2 r k)) = a := funext ha
  obtain rfl : (fun k : Fin 512 => x1 (ix2 r k)) = s := funext hs
  obtain rfl : (fun k : Fin 512 => x2 (ix2 k q)) = b := funext hb
  obtain rfl : (fun k : Fin 512 => x3 (ix2 k q)) = z := funext hz
  rw [pay4_apply, pay3_apply]
  rfl

/-- The second stored value at (r, q) is the sign output of the factorised form. -/
theorem pay5_rows (x0 x1 : Vec Ideal S256x512 .f32) (x2 x3 : Vec Ideal S512x256 .f32) (r q : Fin 256)
    (a s b z : Fin 512 → EReal) (ha : ∀ k, x0 (ix2 r k) = a k) (hs : ∀ k, x1 (ix2 r k) = s k)
    (hb : ∀ k, x2 (ix2 k q) = b k) (hz : ∀ k, x3 (ix2 k q) = z k) :
    k0_pay5 x0 x1 x2 x3 (ix2 r q) = splitSign negInf a s b z := by
  obtain rfl : (fun k : Fin 512 => x0 (ix2 r k)) = a := funext ha
  obtain rfl : (fun k : Fin 512 => x1 (ix2 r k)) = s := funext hs
  obtain rfl : (fun k : Fin 512 => x2 (ix2 k q)) = b := funext hb
  obtain rfl : (fun k : Fin 512 => x3 (ix2 k q)) = z := funext hz
  rw [pay5_apply, pay3_apply]
  rfl

end Cert.KernelIdeal.Block

end
-- ==== Proof.KernelArray.lean ====
/-
  From what each grid point writes to the two result arrays.

  The grid has two points.  Point t reads rows 256·t … 256·t + 255 of the two left arrays (all 512 columns) and the
  whole of the two right arrays, and writes rows 256·t … 256·t + 255 of each result array (all 256 columns).  Entry
  (r, q) of what it writes depends only on row 256·t + r of the left arrays and column q of the right ones: it is the
  logarithm output, respectively the sign output, of the factorised signed sum of that row against that column.  The
  two blocks tile each result array, so after the run entry (p, q) of the first result is the logarithm output and
  of the second the sign output for row p and column q of the arguments.
-/
import proofs.«143088_j9199819948570_2_alg».proof.Proof.Gen.KernelIdeal.Frame
import proofs.«143088_j9199819948570_2_alg».proof.Proof.KernelBlock
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)
open Cert.SignedLogSum Cert.KernelIdeal.Block

variable (m : (ℓ : Loc nD τ sig) → Buf (Elt Ideal) ℓ) (ρ : Dev nD → PrngReg)

/-! ## The two result arrays as functions of the argument arrays -/

/-- The logarithm output for row `p` of the left arrays against column `q` of the right arrays. -/
def logAt (la sa : S512x512.Idx → EReal) (lb sb : S512x256.Idx → EReal) (p : Fin 512) (q : Fin 256) : EReal :=
  splitLog negInf (fun k : Fin 512 => la (ix2 p k)) (fun k : Fin 512 => sa (ix2 p k))
    (fun k : Fin 512 => lb (ix2 k q)) (fun k : Fin 512 => sb (ix2 k q))

/-- The sign output for row `p` against column `q`. -/
def signAt (la sa : S512x512.Idx → EReal) (lb sb : S512x256.Idx → EReal) (p : Fin 512) (q : Fin 256) : EReal :=
  splitSign negInf (fun k : Fin 512 => la (ix2 p k)) (fun k : Fin 512 => sa (ix2 p k))
    (fun k : Fin 512 => lb (ix2 k q)) (fun k : Fin 512 => sb (ix2 k q))

/-- The first result array. -/
def logArr (la sa : S512x512.Idx → EReal) (lb sb : S512x256.Idx → EReal) : S512x256.Idx → EReal :=
  fun i => logAt la sa lb sb ⟨(i 0).val, (i 0).isLt⟩ ⟨(i 1).val, (i 1).isLt⟩

/-- The second result array. -/
def signArr (la sa : S512x512.Idx → EReal) (lb sb : S512x256.Idx → EReal) : S512x256.Idx → EReal :=
  fun i => signAt la sa lb sb ⟨(i 0).val, (i 0).isLt⟩ ⟨(i 1).val, (i 1).isLt⟩

/-! ## Where the windows' blocks sit -/

theorem offsets_zero : (![0, 0] : Fin 2 → Nat) = fun _ => 0 := funext fun a => by fin_cases a <;> rfl

/-- The printed index maps, decided over the two grid points: the left windows and both result windows are at the
    same block row, every window at block column 0, and the right windows at block (0, 0). -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 1 ∧ win0_4.index t (1 : Fin 2) = 0
    ∧ win0_5.index t (0 : Fin 2) = win0_4.index t (0 : Fin 2) ∧ win0_5.index t (1 : Fin 2) = 0 :=
  (by decide +kernel : ∀ t : Fin grid0.N, _)

/-- Every block row of the result arrays is some point's. -/
theorem index_onto4 : ∀ (q0 : Fin 2), ∃ t : Fin cfg0.N, win0_4.index t = ![q0.val, 0] :=
  (by decide +kernel : ∀ (q0 : Fin 2), ∃ t : Fin grid0.N, win0_4.index t = ![q0.val, 0])
theorem index_onto5 : ∀ (q0 : Fin 2), ∃ t : Fin cfg0.N, win0_5.index t = ![q0.val, 0] :=
  (by decide +kernel : ∀ (q0 : Fin 2), ∃ t : Fin grid0.N, win0_5.index t = ![q0.val, 0])

/-! ## The input blocks, read at an entry -/

/-- Row `r` of the left logarithms' block at point `t` is row `P` = 256 · (block row) + r of the array. -/
theorem iblk0_apply (c : Dev nD) (t : Fin cfg0.N) (r : Fin 256) (k P : Fin 512)
    (hP : P.val = win0_4.index t (0 : Fin 2) * 256 + r.val) :
    iblk m c 0 t (ix2 r k) = V m c main_arg0 (ix2 P k) := by
  obtain ⟨e0, e1, -⟩ := index_facts t
  show V m c main_arg0 (((cfg0.win 0).blk t).view.emb (ix2 r k)) = V m c main_arg0 (ix2 P k)
  refine congrArg _ (funext fun a => Fin.ext ?_)
  match a with
  | ⟨0, _⟩ => show win0_0.index t (0 : Fin 2) * 256 + 1 * r.val = P.val; omega
  | ⟨1, _⟩ => show win0_0.index t (1 : Fin 2) * 512 + 1 * k.val = k.val; omega

/-- The same for the left weights' block. -/
theorem iblk1_apply (c : Dev nD) (t : Fin cfg0.N) (r : Fin 256) (k P : Fin 512)
    (hP : P.val = win0_4.index t (0 : Fin 2) * 256 + r.val) :
    iblk m c 1 t (ix2 r k) = V m c main_arg1 (ix2 P k) := by
  obtain ⟨-, -, e0, e1, -⟩ := index_facts t
  show V m c main_arg1 (((cfg0.win 1).blk t).view.emb (ix2 r k)) = V m c main_arg1 (ix2 P k)
  refine congrArg _ (funext fun a => Fin.ext ?_)
  match a with
  | ⟨0, _⟩ => show win0_1.index t (0 : Fin 2) * 256 + 1 * r.val = P.val; omega
  | ⟨1, _⟩ => show win0_1.index t (1 : Fin 2) * 512 + 1 * k.val = k.val; omega

/-- The right logarithms' block is the whole array at every point. -/
theorem iblk2_apply (c : Dev nD) (t : Fin cfg0.N) (k : Fin 512) (q : Fin 256) :
    iblk m c 2 t (ix2 k q) = V m c main_arg2 (ix2 k q) := by
  obtain ⟨-, -, -, -, e0, e1, -⟩ := index_facts t
  show V m c main_arg2 (((cfg0.win 2).blk t).view.emb (ix2 k q)) = V m c main_arg2 (ix2 k q)
  refine congrArg _ (funext fun a => Fin.ext ?_)
  match a with
  | ⟨0, _⟩ => show win0_2.index t (0 : Fin 2) * 512 + 1 * k.val = k.val; omega
  | ⟨1, _⟩ => show win0_2.index t (1 : Fin 2) * 256 + 1 * q.val = q.val; omega

/-- The right weights' block is the whole array at every point. -/
theorem iblk3_apply (c : Dev nD) (t : Fin cfg0.N) (k : Fin 512) (q : Fin 256) :
    iblk m c 3 t (ix2 k q) = V m c main_arg3 (ix2 k q) := by
  obtain ⟨-, -, -, -, -, -, e0, e1, -⟩ := index_facts t
  show V m c main_arg3 (((cfg0.win 3).blk t).view.emb (ix2 k q)) = V m c main_arg3 (ix2 k q)
  refine congrArg _ (funext fun a => Fin.ext ?_)
  match a with
  | ⟨0, _⟩ => show win0_3.index t (0 : Fin 2) * 512 + 1 * k.val = k.val; omega
  | ⟨1, _⟩ => show win0_3.index t (1 : Fin 2) * 256 + 1 * q.val = q.val; omega

/-! ## What a point writes back is its block of the result arrays -/

/-- Point `t` writes back block `t` of the first result array. -/
theorem flushed4_eq (c : Dev nD) (t : Fin cfg0.N) :
    (dats m 0 c).flushed 4 t = ((cfg0.win 4).blk t).view.read (Elt Ideal)
      (logArr (V m c main_arg0) (V m c main_arg1) (V m c main_arg2) (V m c main_arg3)) := by
  show (cfg0.win 4).cut (grid0.coords t) ((dats m 0 c).after 4 t) = _
  rw [after0_4]
  unfold out0_4
  rw [View.canon_unit_zero offsets_zero]
  simp only [View.ld_unit_zero (S := S256x512) offsets_zero, View.ld_unit_zero (S := S512x256) offsets_zero]
  refine funext fun (j : S256x256.Idx) => ?_
  obtain ⟨r, q, rfl⟩ : ∃ (r q : Fin 256), j = ix2 r q := ⟨j 0, j 1, eq_ix2 j⟩
  obtain ⟨-, -, -, -, -, -, -, -, e8, e9, -⟩ := index_facts t
  have hr := r.isLt
  have hq := q.isLt
  obtain ⟨P, hP⟩ : ∃ P : Fin 512, P.val = win0_4.index t (0 : Fin 2) * 256 + r.val :=
    ⟨⟨win0_4.index t (0 : Fin 2) * 256 + r.val, by omega⟩, rfl⟩
  have hemb : ((cfg0.win 4).blk t).view.emb (ix2 r q) = ix2 P q := funext fun a => Fin.ext (by
    match a with
    | ⟨0, _⟩ => show win0_4.index t (0 : Fin 2) * 256 + 1 * r.val = P.val; omega
    | ⟨1, _⟩ => show win0_4.index t (1 : Fin 2) * 256 + 1 * q.val = q.val; omega)
  show k0_pay4 (iblk m c 0 t) (iblk m c 1 t) (iblk m c 2 t) (iblk m c 3 t) (ix2 r q)
    = logArr (V m c main_arg0) (V m c main_arg1) (V m c main_arg2) (V m c main_arg3) (((cfg0.win 4).blk t).view.emb (ix2 r q))
  rw [hemb]
  exact pay4_rows (iblk m c 0 t) (iblk m c 1 t) (iblk m c 2 t) (iblk m c 3 t) r q _ _ _ _
    (fun k => iblk0_apply m c t r k P hP) (fun k => iblk1_apply m c t r k P hP)
    (fun k => iblk2_apply m c t k q) (fun k => iblk3_apply m c t k q)

/-- Point `t` writes back block `t` of the second result array. -/
theorem flushed5_eq (c : Dev nD) (t : Fin cfg0.N) :
    (dats m 0 c).flushed 5 t = ((cfg0.win 5).blk t).view.read (Elt Ideal)
      (signArr (V m c main_arg0) (V m c main_arg1) (V m c main_arg2) (V m c main_arg3)) := by
  show (cfg0.win 5).cut (grid0.coords t) ((dats m 0 c).after 5 t) = _
  rw [after0_5]
  unfold out0_5
  rw [View.canon_unit_zero offsets_zero]
  simp only [View.ld_unit_zero (S := S256x512) offsets_zero, View.ld_unit_zero (S := S512x256) offsets_zero]
  refine funext fun (j : S256x256.Idx) => ?_
  obtain ⟨r, q, rfl⟩ : ∃ (r q : Fin 256), j = ix2 r q := ⟨j 0, j 1, eq_ix2 j⟩
  obtain ⟨-, -, -, -, -, -, -, -, e8, e9, e10, e11⟩ := index_facts t
  have hr := r.isLt
  have hq := q.isLt
  obtain ⟨P, hP⟩ : ∃ P : Fin 512, P.val = win0_4.index t (0 : Fin 2) * 256 + r.val :=
    ⟨⟨win0_4.index t (0 : Fin 2) * 256 + r.val, by omega⟩, rfl⟩
  have hemb : ((cfg0.win 5).blk t).view.emb (ix2 r q) = ix2 P q := funext fun a => Fin.ext (by
    match a with
    | ⟨0, _⟩ => show win0_5.index t (0 : Fin 2) * 256 + 1 * r.val = P.val; omega
    | ⟨1, _⟩ => show win0_5.index t (1 : Fin 2) * 256 + 1 * q.val = q.val; omega)
  show k0_pay5 (iblk m c 0 t) (iblk m c 1 t) (iblk m c 2 t) (iblk m c 3 t) (ix2 r q)
    = signArr (V m c main_arg0) (V m c main_arg1) (V m c main_arg2) (V m c main_arg3) (((cfg0.win 5).blk t).view.emb (ix2 r q))
  rw [hemb]
  exact pay5_rows (iblk m c 0 t) (iblk m c 1 t) (iblk m c 2 t) (iblk m c 3 t) r q _ _ _ _
    (fun k => iblk0_apply m c t r k P hP) (fun k => iblk1_apply m c t r k P hP)
    (fun k => iblk2_apply m c t k q) (fun k => iblk3_apply m c t k q)

/-! ## The blocks tile the result arrays -/

/-- An index of the first result array is in point `t`'s block iff each coordinate is in the block's range. -/
theorem mem_blk4 (t : Fin cfg0.N) (i : S512x256.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v0_0).slice (win0_4.rect t)).set ↔ _
  rw [View.set_slice_whole, Rect.mem_set_unit]
  exact Iff.rfl

theorem mem_blk5 (t : Fin cfg0.N) (i : S512x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v0_1).slice (win0_5.rect t)).set ↔ _
  rw [View.set_slice_whole, Rect.mem_set_unit]
  exact Iff.rfl

/-- Every entry of the first result array is in the block of the point whose block row is (row / 256). -/
theorem cover4 (i : S512x256.Idx) : ∃ t : Fin cfg0.N, (cfg0.win 4).flush t = true ∧ i ∈ ((cfg0.win 4).blk t).view.set := by
  have hi0 : (i 0).val < 512 := (i 0).isLt
  have hi1 : (i 1).val < 256 := (i 1).isLt
  obtain ⟨t, ht⟩ := index_onto4 ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

theorem cover5 (i : S512x256.Idx) : ∃ t : Fin cfg0.N, (cfg0.win 5).flush t = true ∧ i ∈ ((cfg0.win 5).blk t).view.set := by
  have hi0 : (i 0).val < 512 := (i 0).isLt
  have hi1 : (i 1).val < 256 := (i 1).isLt
  obtain ⟨t, ht⟩ := index_onto5 ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-! ## The result arrays after the run -/

/-- The first result array after the run. -/
theorem final4 (c : Dev nD) : (dats m 0 c).arrAt 4 cfg0.N
    = logArr (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed4_eq m c t) cover4

/-- The second result array after the run. -/
theorem final5 (c : Dev nD) : (dats m 0 c).arrAt 5 cfg0.N
    = signArr (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed5_eq m c t) cover5

/-- The run: every weakly fair execution ends with the two result arrays at these functions of the argument arrays,
    and the argument arrays as launched. -/
theorem run : θ_run defs (onTc (τ := τ) (main (F := Ideal))) ⟨m, fun _ => 0, ρ⟩ fun r => ∀ c : Dev nD,
      r.2.mem ((c : Thread nD τ).loc main_v0_0)
        = logArr (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = signArr (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Array

end
-- ==== Proof.ReferenceValue.lean ====
/-
  What the reference computes, read entry by entry.

  The reference spreads the two pairs of arrays over a common [512, 512, 256] box — entry (p, k, q) of the summed
  logarithms is x0(p,k) + x2(k,q), of the multiplied weights x1(p,k) · x3(k,q) — takes the maximum of the summed
  logarithms over k (folded from −∞), subtracts it, exponentiates, multiplies by the weights and sums over k.  So at
  (p, q) its two results are the logarithm output and the sign output of the joint signed sum of row p of the left
  arrays against column q of the right ones, stabilised by that one maximum.
-/
import proofs.«143088_j9199819948570_2_alg».proof.Proof.Gen.ReferenceIdeal.Read
import proofs.«143088_j9199819948570_2_alg».proof.Proof.LibSignedLogSum
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.SignedLogSum

/-- The starting value of the maximum: the f32 word of −∞. -/
abbrev negInf : EReal := Ideal.ofBits .f32 0xFF800000#32

variable (x0 x1 : (⟨S512x512, .f32⟩ : BufTy).Contents (Elt Ideal)) (x2 x3 : (⟨S512x256, .f32⟩ : BufTy).Contents (Elt Ideal))

/-- The summed logarithms at (p, k, q). -/
theorem v4_apply (p k : Fin 512) (q : Fin 256) :
    val_main_v4 (F := Ideal) x0 x2 (ix3 p k q) = x0 (ix2 p k) + x2 (ix2 k q) := by
  rw [val_main_v4_apply, val_main_v2_apply, val_main_v0_apply, val_main_v3_apply, val_main_v1_apply]
  have e0 : idx_main_v0 (idx_main_v2 (ix3 p k q)) = ix2 p k :=
    funext fun a => Fin.ext (by match a with | ⟨0, _⟩ => rfl | ⟨1, _⟩ => rfl)
  have e1 : idx_main_v1 (idx_main_v3 (ix3 p k q)) = ix2 k q :=
    funext fun a => Fin.ext (by match a with | ⟨0, _⟩ => rfl | ⟨1, _⟩ => rfl)
  rw [e0, e1]
  rfl

/-- The multiplied weights at (p, k, q). -/
theorem v9_apply (p k : Fin 512) (q : Fin 256) :
    val_main_v9 (F := Ideal) x1 x3 (ix3 p k q) = x1 (ix2 p k) * x3 (ix2 k q) := by
  rw [val_main_v9_apply, val_main_v7_apply, val_main_v5_apply, val_main_v8_apply, val_main_v6_apply]
  have e0 : idx_main_v5 (idx_main_v7 (ix3 p k q)) = ix2 p k :=
    funext fun a => Fin.ext (by match a with | ⟨0, _⟩ => rfl | ⟨1, _⟩ => rfl)
  have e1 : idx_main_v6 (idx_main_v8 (ix3 p k q)) = ix2 k q :=
    funext fun a => Fin.ext (by match a with | ⟨0, _⟩ => rfl | ⟨1, _⟩ => rfl)
  rw [e0, e1]
  rfl

/-- Index (p, q) with coordinate `k` put back on the middle axis is (p, k, q). -/
theorem lift_mid3 (h : S512x512x256.Reduces [1] S512x256) (p : Fin 512) (q : Fin 256) (k : Fin (S512x512x256.size 1)) :
    h.lift (ix2 p q) k = ix3 p (⟨k.val, k.isLt⟩ : Fin 512) q :=
  funext fun a => Fin.ext (by match a with | ⟨0, _⟩ => rfl | ⟨1, _⟩ => rfl | ⟨2, _⟩ => rfl)

/-- The maximum over k of the summed logarithms, at (p, q). -/
theorem v10_apply (p : Fin 512) (q : Fin 256) :
    val_main_v10 (F := Ideal) x0 x2 (ix2 p q) = foldMax negInf fun k : Fin 512 => x0 (ix2 p k) + x2 (ix2 k q) := by
  unfold val_main_v10
  have h : S512x512x256.Reduces [1] S512x256 := by decide
  refine (Host.reduce_eq_fold_single FloatOps.maximumf _ _ reducesTo_S512x512x256_S512x256_d1 h h_S_ (ix2 p q)).trans ?_
  have hf : (val_main_v4 (F := Ideal) x0 x2 ∘ h.lift (ix2 p q)) = fun k : Fin 512 => x0 (ix2 p k) + x2 (ix2 k q) :=
    funext fun k => (congrArg (val_main_v4 (F := Ideal) x0 x2) (lift_mid3 h p q k)).trans (v4_apply x0 x2 p _ q)
  unfold foldMax
  exact congrArg (fun f => Finset.fold max negInf f (Finset.univ : Finset (Fin 512))) hf

/-- The maximum spread back over k. -/
theorem v12_apply (p k : Fin 512) (q : Fin 256) :
    val_main_v12 (F := Ideal) x0 x2 (ix3 p k q) = val_main_v10 (F := Ideal) x0 x2 (ix2 p q) := by
  rw [val_main_v12_apply, val_main_v11_apply]
  exact congrArg _ (funext fun a => Fin.ext (by match a with | ⟨0, _⟩ => rfl | ⟨1, _⟩ => rfl))

/-- The maximum with its unit axis dropped. -/
theorem v17_apply (p : Fin 512) (q : Fin 256) :
    val_main_v17 (F := Ideal) x0 x2 (ix2 p q) = val_main_v10 (F := Ideal) x0 x2 (ix2 p q) := by
  rw [val_main_v17_apply, val_main_v11_apply]
  refine congrArg _ (funext fun a => Fin.ext ?_)
  have hp := p.isLt
  have hq := q.isLt
  match a with
  | ⟨0, _⟩ => show (p.val * 256 + q.val) / 256 = p.val; omega
  | ⟨1, _⟩ => show (p.val * 256 + q.val) % 256 = q.val; omega

/-- The signed sum at (p, q): the joint sum stabilised by the maximum. -/
theorem v16_apply (p : Fin 512) (q : Fin 256) :
    val_main_v16 (F := Ideal) x0 x1 x2 x3 (ix2 p q)
      = jointSum (foldMax negInf fun k : Fin 512 => x0 (ix2 p k) + x2 (ix2 k q))
          (fun k : Fin 512 => x0 (ix2 p k)) (fun k : Fin 512 => x1 (ix2 p k))
          (fun k : Fin 512 => x2 (ix2 k q)) (fun k : Fin 512 => x3 (ix2 k q)) := by
  rw [val_main_v16_apply]
  have hz : (val_main_cst_0 (F := Ideal)) (Shape.Idx.first h_S_) = 0 := Ideal.ofBits_zero_f32
  rw [hz, zero_add]
  unfold jointSum
  refine Finset.sum_congr rfl fun k _ => ?_
  have ei : idx_main_v16 (ix2 p q) k = ix3 p k q :=
    funext fun a => Fin.ext (by match a with | ⟨0, _⟩ => rfl | ⟨1, _⟩ => rfl | ⟨2, _⟩ => rfl)
  rw [ei, val_main_v15_apply, val_main_v14_apply, val_main_v13_apply, v9_apply, v4_apply, v12_apply, v10_apply]
  rfl

/-- The first result at (p, q): maximum + log |joint sum|. -/
theorem v20_apply (p : Fin 512) (q : Fin 256) :
    val_main_v20 (F := Ideal) x0 x1 x2 x3 (ix2 p q)
      = (foldMax negInf fun k : Fin 512 => x0 (ix2 p k) + x2 (ix2 k q))
        + Ideal.log (max (val_main_v16 (F := Ideal) x0 x1 x2 x3 (ix2 p q)) (-(val_main_v16 (F := Ideal) x0 x1 x2 x3 (ix2 p q)))) := by
  rw [val_main_v20_apply, val_main_v19_apply, val_main_v18_apply, v17_apply, v10_apply]
  rfl

/-- The second result at (p, q): the sign of the joint sum. -/
theorem v21_apply (p : Fin 512) (q : Fin 256) :
    val_main_v21 (F := Ideal) x0 x1 x2 x3 (ix2 p q) = Ideal.sign (val_main_v16 (F := Ideal) x0 x1 x2 x3 (ix2 p q)) := by
  rw [val_main_v21_apply]
  rfl

/-- The first result at (p, q) is the logarithm output of the joint form of row p against column q. -/
theorem v20_rows (p : Fin 512) (q : Fin 256) :
    val_main_v20 (F := Ideal) x0 x1 x2 x3 (ix2 p q)
      = jointLog negInf (fun k : Fin 512 => x0 (ix2 p k)) (fun k : Fin 512 => x1 (ix2 p k))
          (fun k : Fin 512 => x2 (ix2 k q)) (fun k : Fin 512 => x3 (ix2 k q)) := by
  rw [v20_apply, v16_apply]
  rfl

/-- The second result at (p, q) is the sign output of the joint form. -/
theorem v21_rows (p : Fin 512) (q : Fin 256) :
    val_main_v21 (F := Ideal) x0 x1 x2 x3 (ix2 p q)
      = jointSign negInf (fun k : Fin 512 => x0 (ix2 p k)) (fun k : Fin 512 => x1 (ix2 p k))
          (fun k : Fin 512 => x2 (ix2 k q)) (fun k : Fin 512 => x3 (ix2 k q)) := by
  rw [v21_apply, v16_apply]
  rfl

end Cert.ReferenceIdeal.RefValue

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«143088_j9199819948570_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.FiniteInputs.lean ====
/-
  The precondition says that every entry of the four input arrays is a real number.

  The precondition is the conjunction of four tests "every entry v of the array satisfies |v| < +∞", one per input
  array.  A conjunction of bits is 1 exactly when each bit is; an "all entries" reduction by `and` that is 1 had a 1
  at every entry; and the test |v| < +∞ passes at an entry exactly when the entry is neither infinity.
-/
import proofs.«143088_j9199819948570_2_alg».proof.Proof.Gen.Pre_finite_inputs
import proofs.«143088_j9199819948570_2_alg».proof.Proof.LibFiniteTest
import Idealize.ShloMosaic.Lib.ReduceAll
import Idealize.ShloMosaic.Lib.Affine

noncomputable section

namespace Cert.Pre_finite_inputs.Finite

open Cert.Pre_finite_inputs Idealize.ShloMosaic Idealize.ShloMosaic.ValueIdx Cert.LibERealSums Cert.LibFiniteTest

/-- Where the precondition holds of four arrays, all their entries are finite. -/
theorem isFin_of_pre (x0 x1 : FVec Ideal S512x512 .f32) (x2 x3 : FVec Ideal S512x256 .f32)
    (h : fn (F := Ideal) x0 x1 x2 x3 = fun _ => 1#1) :
    (∀ i, IsFin (x0 i)) ∧ (∀ i, IsFin (x1 i)) ∧ (∀ i, IsFin (x2 i)) ∧ (∀ i, IsFin (x3 i)) := by
  have h0 := congrFun h ix0
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨h3, h7⟩, h12⟩, h17⟩ := h0
  refine ⟨fun i => ?_, fun i => ?_, fun i => ?_, fun i => ?_⟩
  · exact isFin_of_test x0 Facts.bcast_S_S512x512 i (Host.reduce_andi_all _ _ _ _ ix0 h3 i)
  · exact isFin_of_test x1 Facts.bcast_S_S512x512 i (Host.reduce_andi_all _ _ _ _ ix0 h7 i)
  · exact isFin_of_test x2 Facts.bcast_S_S512x256 i (Host.reduce_andi_all _ _ _ _ ix0 h12 i)
  · exact isFin_of_test x3 Facts.bcast_S_S512x256 i (Host.reduce_andi_all _ _ _ _ ix0 h17 i)

end Cert.Pre_finite_inputs.Finite

end
-- ==== Proof.Bridge.lean ====
/-
  The two programs' results are one function of finite arguments.

  At (p, q) the kernel's first result is the logarithm output of the factorised signed sum of row p of the left arrays
  against column q of the right arrays, the reference's the logarithm output of the joint signed sum of the same row
  and column; likewise the second results are the two sign outputs.  On finite entries the factorised and the joint
  forms agree, so under the precondition — every input entry a real number — the arrays agree entry by entry.
-/
import proofs.«143088_j9199819948570_2_alg».proof.Proof.KernelArray
import proofs.«143088_j9199819948570_2_alg».proof.Proof.ReferenceValue
import proofs.«143088_j9199819948570_2_alg».proof.Proof.FiniteInputs

noncomputable section

namespace Cert.Bridge

open Idealize.ShloMosaic Idealize.ShloMosaic.ValueIdx Cert.SignedLogSum Cert.LibERealSums

variable (x0 x1 : (⟨Cert.ReferenceIdeal.S512x512, .f32⟩ : BufTy).Contents (Elt Ideal))
  (x2 x3 : (⟨Cert.ReferenceIdeal.S512x256, .f32⟩ : BufTy).Contents (Elt Ideal))

/-- The reference's first result is the kernel's first result array, on finite arguments. -/
theorem log_eq (h0 : ∀ i, IsFin (x0 i)) (h1 : ∀ i, IsFin (x1 i)) (h2 : ∀ i, IsFin (x2 i)) (h3 : ∀ i, IsFin (x3 i)) :
    Cert.ReferenceIdeal.Read.val_main_v20 (F := Ideal) x0 x1 x2 x3 = Cert.KernelIdeal.Array.logArr x0 x1 x2 x3 := by
  funext i
  obtain ⟨p, q, rfl⟩ : ∃ (p : Fin 512) (q : Fin 256), i = ix2 p q := ⟨i 0, i 1, eq_ix2 i⟩
  rw [Cert.ReferenceIdeal.RefValue.v20_rows]
  show _ = Cert.KernelIdeal.Array.logAt x0 x1 x2 x3 p q
  unfold Cert.KernelIdeal.Array.logAt
  exact (splitLog_eq_jointLog (by decide : 0 < 512) negInf_word_ne_top (fun k => h0 _) (fun k => h1 _)
    (fun k => h2 _) (fun k => h3 _)).symm

/-- The reference's second result is the kernel's second result array, on finite arguments. -/
theorem sign_eq (h0 : ∀ i, IsFin (x0 i)) (h1 : ∀ i, IsFin (x1 i)) (h2 : ∀ i, IsFin (x2 i)) (h3 : ∀ i, IsFin (x3 i)) :
    Cert.ReferenceIdeal.Read.val_main_v21 (F := Ideal) x0 x1 x2 x3 = Cert.KernelIdeal.Array.signArr x0 x1 x2 x3 := by
  funext i
  obtain ⟨p, q, rfl⟩ : ∃ (p : Fin 512) (q : Fin 256), i = ix2 p q := ⟨i 0, i 1, eq_ix2 i⟩
  rw [Cert.ReferenceIdeal.RefValue.v21_rows]
  show _ = Cert.KernelIdeal.Array.signAt x0 x1 x2 x3 p q
  unfold Cert.KernelIdeal.Array.signAt
  exact (splitSign_eq_jointSign (by decide : 0 < 512) negInf_word_ne_top (fun k => h0 _) (fun k => h1 _)
    (fun k => h2 _) (fun k => h3 _)).symm

end Cert.Bridge

end
-- ==== Proof.lean ====
/-
  The certificate of a signed log-space matrix product.

  Both programs compute, for every row p of the left arrays (logarithms and signed weights, 512 × 512) and every
  column q of the right arrays (512 × 256), the logarithm of the absolute value and the sign of the signed sum
  ∑ₖ weightₖ · exp (logarithmₖ).  The reference stabilises the sum by the maximum over k of the summed logarithms; the
  kernel stabilises the left factor by the row's maximum and the right factor by the column's maximum, which turns the
  sum into a matrix product.  The two sums differ by the positive factor exp (joint maximum − row maximum − column
  maximum), so their signs agree and the logarithms, with the stabilisers added back, agree — as long as every entry
  is a real number, which is what the precondition says (Proof/LibSignedLogSum.lean has the mathematics; Proof/KernelBlock
  and Proof/KernelArray read the kernel, Proof/ReferenceValue the reference, Proof/FiniteInputs the precondition,
  Proof/Bridge joins them).

  The three frames are the programs' runs with the results dropped; the one rewrite of the idealization (the sign bit
  of the product read as a comparison with zero) is its rule's statement.
-/
import proofs.«143088_j9199819948570_2_alg».proof.Defs
import proofs.«143088_j9199819948570_2_alg».proof.Proof.Gen.Kernel
import proofs.«143088_j9199819948570_2_alg».proof.Proof.Gen.Kernel.Skeleton
import proofs.«143088_j9199819948570_2_alg».proof.Proof.Gen.Kernel.Launch
import proofs.«143088_j9199819948570_2_alg».proof.Proof.Gen.Kernel.Points
import proofs.«143088_j9199819948570_2_alg».proof.Proof.Gen.Kernel.Frame
import proofs.«143088_j9199819948570_2_alg».proof.Proof.Gen.KernelIdeal
import proofs.«143088_j9199819948570_2_alg».proof.Proof.Gen.KernelIdeal.Skeleton
import proofs.«143088_j9199819948570_2_alg».proof.Proof.Gen.KernelIdeal.Launch
import proofs.«143088_j9199819948570_2_alg».proof.Proof.Gen.KernelIdeal.Points
import proofs.«143088_j9199819948570_2_alg».proof.Proof.Gen.KernelIdeal.Frame
import proofs.«143088_j9199819948570_2_alg».proof.Proof.Gen.ReferenceIdeal
import proofs.«143088_j9199819948570_2_alg».proof.Proof.Gen.Pre_finite_inputs
import proofs.«143088_j9199819948570_2_alg».proof.Proof.Gen.ReferenceIdeal.Run
import proofs.«143088_j9199819948570_2_alg».proof.Proof.Gen.ReferenceIdeal.Read
import proofs.«143088_j9199819948570_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: 1.0 carrying the product's sign bit is −1 below zero and 1 otherwise. -/
theorem preserves : Cert.preserves_Kernel_KernelIdeal :=
  IdealRules.sign_bit.statement Cert.KernelIdeal.S256x256 .f32

/-- From memories agreeing on the four finite arguments, both programs end with the same two result arrays: the
    logarithm output and the sign output of every row against every column. -/
theorem algebraic : Cert.algebraic_KernelIdeal_ReferenceIdeal := by
  intro m ρ m' ρ' hpre hagree
  refine ⟨_, _, Cert.KernelIdeal.Array.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3⟩ := Cert.Pre_finite_inputs.Finite.isFin_of_pre _ _ _ _ (hpre c)
    rw [Cert.ReferenceIdeal.Read.val_main_v20_eq, (hagree c).1, (hagree c).2.1, (hagree c).2.2.1, (hagree c).2.2.2]
    exact Cert.Bridge.log_eq _ _ _ _ h0 h1 h2 h3
  · obtain ⟨h0, h1, h2, h3⟩ := Cert.Pre_finite_inputs.Finite.isFin_of_pre _ _ _ _ (hpre c)
    rw [Cert.ReferenceIdeal.Read.val_main_v21_eq, (hagree c).1, (hagree c).2.1, (hagree c).2.2.1, (hagree c).2.2.2]
    exact Cert.Bridge.sign_eq _ _ _ _ h0 h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
